-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200x64 : Shape := ⟨3, ![4096, 200, 64]⟩
abbrev S8x64 : Shape := ⟨2, ![8, 64]⟩
abbrev S_ : Shape := ⟨0, ![]⟩

class Facts : Prop where
  bcast_S_S4096x200x64 : S_.BroadcastsInDim S4096x200x64 (![] : Fin 0 → Fin S4096x200x64.rank)
  reducesTo_S4096x200x64_S_d0_1_2 : S4096x200x64.ReducesTo [0, 1, 2] S_
  h_S_ : 0 < S_.numel
  bcast_S_S8x64 : S_.BroadcastsInDim S8x64 (![] : Fin 0 → Fin S8x64.rank)
  reducesTo_S8x64_S_d0_1 : S8x64.ReducesTo [0, 1] S_

variable [Facts]

def fn {F : FTy → Type} [FloatOps F] (main_arg0 : FVec F S4096x200x64 .f32) (main_arg1 : FVec F S8x64 .f32) : IVec S_ 1 :=
  let main_v0 : FVec F S4096x200x64 .f32 := Host.absf main_arg0
  let main_cst : FVec F S_ .f32 := constant S_ .f32 0x7F800000#32
  let main_v1 : FVec F S4096x200x64 .f32 := broadcastInDim S4096x200x64 ![] bcast_S_S4096x200x64 main_cst
  let main_v2 : IVec S4096x200x64 1 := cmpf .olt main_v0 main_v1
  let main_c : IVec S_ 1 := constantI S_ 1 1#1
  let main_v3 : IVec S_ 1 := (fun x v => Host.reduce IntOp.andi x v reducesTo_S4096x200x64_S_d0_1_2 h_S_) main_v2 main_c
  let main_v4 : FVec F S8x64 .f32 := Host.absf main_arg1
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  main_v8
-- ==== Kernel.lean ====
abbrev S4096x200x64 : Shape := ⟨3, ![4096, 200, 64]⟩
abbrev S8x64 : Shape := ⟨2, ![8, 64]⟩
abbrev S_ : Shape := ⟨0, ![]⟩
abbrev S8 : Shape := ⟨1, ![8]⟩
abbrev S8x1 : Shape := ⟨2, ![8, 1]⟩
abbrev S4096x512 : Shape := ⟨2, ![4096, 512]⟩
abbrev S64x200x64 : Shape := ⟨3, ![64, 200, 64]⟩
abbrev S64x512 : Shape := ⟨2, ![64, 512]⟩
abbrev S1x8x64 : Shape := ⟨3, ![1, 8, 64]⟩
abbrev S64x8x64 : Shape := ⟨3, ![64, 8, 64]⟩
abbrev S64x1x64 : Shape := ⟨3, ![64, 1, 64]⟩
abbrev S64x8x200 : Shape := ⟨3, ![64, 8, 200]⟩
abbrev S64x1x200 : Shape := ⟨3, ![64, 1, 200]⟩
abbrev S64x200 : Shape := ⟨2, ![64, 200]⟩
abbrev S4096x8x64 : Shape := ⟨3, ![4096, 8, 64]⟩

abbrev nBuf : Space → Nat
  | .hbm => 14
  | .vmem => 5
  | .smem => 0
  | _ => 0

abbrev bufTy : (tb : Table) → Fin (tcTables nBuf tb) → BufTy
  | .hbm, ⟨0, _⟩ => ⟨S4096x200x64, .f32⟩
  | .hbm, ⟨1, _⟩ => ⟨S8x64, .f32⟩
  | .hbm, ⟨2, _⟩ => ⟨S8x64, .f32⟩
  | .hbm, ⟨3, _⟩ => ⟨S_, .f32⟩
  | .hbm, ⟨4, _⟩ => ⟨S8, .f32⟩
  | .hbm, ⟨5, _⟩ => ⟨S8x1, .f32⟩
  | .hbm, ⟨6, _⟩ => ⟨S_, .f32⟩
  | .hbm, ⟨7, _⟩ => ⟨S8x1, .f32⟩
  | .hbm, ⟨8, _⟩ => ⟨S8x1, .f32⟩
  | .hbm, ⟨9, _⟩ => ⟨S8x1, .f32⟩
  | .hbm, ⟨10, _⟩ => ⟨S8x64, .f32⟩
  | .hbm, ⟨11, _⟩ => ⟨S8x64, .f32⟩
  | .hbm, ⟨12, _⟩ => ⟨S4096x512, .f32⟩
  | .hbm, ⟨13, _⟩ => ⟨S4096x8x64, .f32⟩
  | .local _ .vmem, ⟨0, _⟩ => ⟨S64x200x64, .f32⟩
  | .local _ .vmem, ⟨1, _⟩ => ⟨S64x200x64, .f32⟩
  | .local _ .vmem, ⟨2, _⟩ => ⟨S8x64, .f32⟩
  | .local _ .vmem, ⟨3, _⟩ => ⟨S64x512, .f32⟩
  | .local _ .vmem, ⟨4, _⟩ => ⟨S64x512, .f32⟩
  | _, _ => ⟨S4096x200x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S8x64_S8_d1 : S8x64.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x64_0_1 : S8x1.BroadcastsInDim S8x64 (![0, 1] : Fin 2 → Fin S8x64.rank)
  inb_S64x200x64_S64x200x64_0_0_0 : ∀ a, (![0, 0, 0] : Fin 3 → Nat) a + S64x200x64.size a ≤ S64x200x64.size a
  h_S64x200x64 : 0 < S64x200x64.numel
  inb_S8x64_S8x64_0_0 : ∀ a, (![0, 0] : Fin 2 → Nat) a + S8x64.size a ≤ S8x64.size a
  h_S8x64 : 0 < S8x64.numel
  shapeCasts_S8x64_S8x64 : S8x64.ShapeCasts S8x64
  shapeCasts_S8x64_S1x8x64 : S8x64.ShapeCasts S1x8x64
  broadcasts_S1x8x64_S64x8x64 : S1x8x64.Broadcasts S64x8x64
  broadcasts_S64x1x200_S64x8x200 : S64x1x200.Broadcasts S64x8x200
  reduces_S64x8x200_S64x200 : S64x8x200.Reduces [1] S64x200
  shapeCasts_S64x200_S64x1x200 : S64x200.ShapeCasts S64x1x200
  shapeCasts_S64x8x64_S64x512 : S64x8x64.ShapeCasts S64x512
  inb_S64x512_S64x512_0_0 : ∀ a, (![0, 0] : Fin 2 → Nat) a + S64x512.size a ≤ S64x512.size a
  h_S64x512 : 0 < S64x512.numel
  shapeCasts_S4096x512_S4096x8x64 : S4096x512.ShapeCasts S4096x8x64
  dot_S64x8x64_S64x200x64_S64x8x200_2_2_1_1_0_0_wf : DotDims.WF S64x8x64 S64x200x64 S64x8x200 [2] [2] [1] [1] [0] [0]
  dot_S64x1x64_S64x200x64_S64x1x200_2_2_1_1_0_0_wf : DotDims.WF S64x1x64 S64x200x64 S64x1x200 [2] [2] [1] [1] [0] [0]
  dot_S64x8x200_S64x200x64_S64x8x64_2_1_1_2_0_0_wf : DotDims.WF S64x8x200 S64x200x64 S64x8x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x200x64.size a ≤ S4096x200x64.size a
  hwx0_0 : ∀ i : grid0.Coords, EltTy.bits .f32 = 32 ∨ (Rect.block (s := S4096x200x64) S64x200x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S4096x512.size a
  hwx0_2 : ∀ i : grid0.Coords, EltTy.bits .f32 = 32 ∨ (Rect.block (s := S4096x512) S64x512.size (cc0_transform_2 i) (hinb0_2 i)).WholeWords (EltTy.packing .f32)

variable [Facts₀]

def dot_S64x8x64_S64x200x64_S64x8x200_2_2_1_1_0_0 : DotDims S64x8x64 S64x200x64 S64x8x200 where
  lhsContracting := [2]
  rhsContracting := [2]
  lhsNonContracting := [1]
  rhsNonContracting := [1]
  lhsBatch := [0]
  rhsBatch := [0]
  wf := dot_S64x8x64_S64x200x64_S64x8x200_2_2_1_1_0_0_wf
def dot_S64x1x64_S64x200x64_S64x1x200_2_2_1_1_0_0 : DotDims S64x1x64 S64x200x64 S64x1x200 where
  lhsContracting := [2]
  rhsContracting := [2]
  lhsNonContracting := [1]
  rhsNonContracting := [1]
  lhsBatch := [0]
  rhsBatch := [0]
  wf := dot_S64x1x64_S64x200x64_S64x1x200_2_2_1_1_0_0_wf
def dot_S64x8x200_S64x200x64_S64x8x64_2_1_1_2_0_0 : DotDims S64x8x200 S64x200x64 S64x8x64 where
  lhsContracting := [2]
  rhsContracting := [1]
  lhsNonContracting := [1]
  rhsNonContracting := [2]
  lhsBatch := [0]
  rhsBatch := [0]
  wf := dot_S64x8x200_S64x200x64_S64x8x64_2_1_1_2_0_0_wf

abbrev win0_0 : Pipeline.Window sig grid0 :=
  Pipeline.Window.ofSpec (Memref.whole main_arg0) S64x200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x200x64 : Shape := ⟨3, ![4096, 200, 64]⟩
abbrev S8x64 : Shape := ⟨2, ![8, 64]⟩
abbrev S_ : Shape := ⟨0, ![]⟩
abbrev S4096x200 : Shape := ⟨2, ![4096, 200]⟩
abbrev S4096x200x1 : Shape := ⟨3, ![4096, 200, 1]⟩
abbrev S8 : Shape := ⟨1, ![8]⟩
abbrev S8x1 : Shape := ⟨2, ![8, 1]⟩
abbrev S4096x200x8 : Shape := ⟨3, ![4096, 200, 8]⟩
abbrev S4096x8x200 : Shape := ⟨3, ![4096, 8, 200]⟩
abbrev S4096x1x200 : Shape := ⟨3, ![4096, 1, 200]⟩
abbrev S4096x8x64 : Shape := ⟨3, ![4096, 8, 64]⟩

abbrev nBuf : Space → Nat
  | .hbm => 39
  | .vmem => 0
  | .smem => 0
  | _ => 0

abbrev bufTy : (tb : Table) → Fin (tcTables nBuf tb) → BufTy
  | .hbm, ⟨0, _⟩ => ⟨S4096x200x64, .f32⟩
  | .hbm, ⟨1, _⟩ => ⟨S8x64, .f32⟩
  | .hbm, ⟨2, _⟩ => ⟨S4096x200x64, .f32⟩
  | .hbm, ⟨3, _⟩ => ⟨S_, .f32⟩
  | .hbm, ⟨4, _⟩ => ⟨S4096x200, .f32⟩
  | .hbm, ⟨5, _⟩ => ⟨S4096x200x1, .f32⟩
  | .hbm, ⟨6, _⟩ => ⟨S_, .f32⟩
  | .hbm, ⟨7, _⟩ => ⟨S4096x200x1, .f32⟩
  | .hbm, ⟨8, _⟩ => ⟨S4096x200x1, .f32⟩
  | .hbm, ⟨9, _⟩ => ⟨S4096x200x1, .f32⟩
  | .hbm, ⟨10, _⟩ => ⟨S4096x200x64, .f32⟩
  | .hbm, ⟨11, _⟩ => ⟨S4096x200x64, .f32⟩
  | .hbm, ⟨12, _⟩ => ⟨S8x64, .f32⟩
  | .hbm, ⟨13, _⟩ => ⟨S_, .f32⟩
  | .hbm, ⟨14, _⟩ => ⟨S8, .f32⟩
  | .hbm, ⟨15, _⟩ => ⟨S8x1, .f32⟩
  | .hbm, ⟨16, _⟩ => ⟨S_, .f32⟩
  | .hbm, ⟨17, _⟩ => ⟨S8x1, .f32⟩
  | .hbm, ⟨18, _⟩ => ⟨S8x1, .f32⟩
  | .hbm, ⟨19, _⟩ => ⟨S8x1, .f32⟩
  | .hbm, ⟨20, _⟩ => ⟨S8x64, .f32⟩
  | .hbm, ⟨21, _⟩ => ⟨S8x64, .f32⟩
  | .hbm, ⟨22, _⟩ => ⟨S4096x200x8, .f32⟩
  | .hbm, ⟨23, _⟩ => ⟨S4096x8x200, .f32⟩
  | .hbm, ⟨24, _⟩ => ⟨S_, .f32⟩
  | .hbm, ⟨25, _⟩ => ⟨S4096x200, .f32⟩
  | .hbm, ⟨26, _⟩ => ⟨S_, .f32⟩
  | .hbm, ⟨27, _⟩ => ⟨S4096x200, .f32⟩
  | .hbm, ⟨28, _⟩ => ⟨S4096x200, .f32⟩
  | .hbm, ⟨29, _⟩ => ⟨S4096x1x200, .f32⟩
  | .hbm, ⟨30, _⟩ => ⟨S4096x8x200, .f32⟩
  | .hbm, ⟨31, _⟩ => ⟨S4096x8x200, .f32⟩
  | .hbm, ⟨32, _⟩ => ⟨S4096x8x200, .f32⟩
  | .hbm, ⟨33, _⟩ => ⟨S_, .f32⟩
  | .hbm, ⟨34, _⟩ => ⟨S4096x200, .f32⟩
  | .hbm, ⟨35, _⟩ => ⟨S4096x1x200, .f32⟩
  | .hbm, ⟨36, _⟩ => ⟨S4096x8x200, .f32⟩
  | .hbm, ⟨37, _⟩ => ⟨S4096x8x200, .f32⟩
  | .hbm, ⟨38, _⟩ => ⟨S4096x8x64, .f32⟩
  | _, _ => ⟨S4096x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  reducesTo_S4096x200x64_S4096x200_d2 : S4096x200x64.ReducesTo [2] S4096x200
  h_S_ : 0 < S_.numel
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S4096x200x1_S4096x200x64_0_1_2 : S4096x200x1.BroadcastsInDim S4096x200x64 (![0, 1, 2] : Fin 3 → Fin S4096x200x64.rank)
  reducesTo_S8x64_S8_d1 : S8x64.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x64_0_1 : S8x1.BroadcastsInDim S8x64 (![0, 1] : Fin 2 → Fin S8x64.rank)
  transposes_S4096x200x8_S4096x8x200_0_2_1 : S4096x200x8.Transposes [0, 2, 1] S4096x8x200
  reducesTo_S4096x8x200_S4096x200_d1 : S4096x8x200.ReducesTo [1] S4096x200
  bcast_S_S4096x200 : S_.BroadcastsInDim S4096x200 (![] : Fin 0 → Fin S4096x200.rank)
  bcast_S4096x200_S4096x1x200_0_2 : S4096x200.BroadcastsInDim S4096x1x200 (![0, 2] : Fin 2 → Fin S4096x1x200.rank)
  bcast_S4096x1x200_S4096x8x200_0_1_2 : S4096x1x200.BroadcastsInDim S4096x8x200 (![0, 1, 2] : Fin 3 → Fin S4096x8x200.rank)
  dot_S4096x200x64_S8x64_S4096x200x8_2_1_01_0_n_n_wf : DotDims.WF S4096x200x64 S8x64 S4096x200x8 [2] [1] [0, 1] [0] [] []
  dot_S4096x8x200_S4096x200x64_S4096x8x64_2_1_1_2_0_0_wf : DotDims.WF S4096x8x200 S4096x200x64 S4096x8x64 [2] [1] [1] [2] [0] [0]

variable [Facts₀]

def dot_S4096x200x64_S8x64_S4096x200x8_2_1_01_0_n_n : DotDims S4096x200x64 S8x64 S4096x200x8 where
  lhsContracting := [2]
  rhsContracting := [1]
  lhsNonContracting := [0, 1]
  rhsNonContracting := [0]
  lhsBatch := []
  rhsBatch := []
  wf := dot_S4096x200x64_S8x64_S4096x200x8_2_1_01_0_n_n_wf
def dot_S4096x8x200_S4096x200x64_S4096x8x64_2_1_1_2_0_0 : DotDims S4096x8x200 S4096x200x64 S4096x8x64 where
  lhsContracting := [2]
  rhsContracting := [1]
  lhsNonContracting := [1]
  rhsNonContracting := [2]
  lhsBatch := [0]
  rhsBatch := [0]
  wf := dot_S4096x8x200_S4096x200x64_S4096x8x64_2_1_1_2_0_0_wf

class Facts : Prop extends Facts₀ where

variable [Facts]
-- ==== Proof.RowSpec.lean ====
/-
  One batch row of the slot projector, as a function on the extended reals.

  A row is 200 tokens of 64 features, `x l d`; the prototype is 8 slots of 64 features, `q k d` (already
  normalized: both programs normalize it by the same operations, so it is carried as given). The cosine of slot `k`
  against token `l` is `(∑ d, q k d · x l d) · r l` with `r l = rsqrt (max (∑ d, x l d²) ε)` the clamped inverse norm of
  the token; the weights are the softmax of the cosines over the 8 slots (taken at each token), and the result is
  `∑ l, weight k l · x l d`.

  The one law that is not bookkeeping: the reference scales every feature of the token by `r l` BEFORE the sum over
  `d`, the kernel scales the sum. On the extended reals a factor moves across a finite sum when it is non-negative
  and not `⊤`; the clamp `ε > 0` puts `r l` in `[0, ⊤)` whatever the token holds (`rsqrt ⊤ = 0`), so no finiteness of
  the inputs is needed.
-/
import Idealize.ShloMosaic.PureOps.Ideal
import Idealize.ShloMosaic.PureOps.Ideal.Laws
import Idealize.ShloMosaic.Lib.ValueIdx

noncomputable section

namespace Cert.SlotProj

open Idealize.ShloMosaic

/-- The clamp under the inverse norm: the binary32 value nearest `1e-12`, the same word in both programs. -/
def eps : EReal := Ideal.ofBits .f32 0x2B8CBCCC#32

/-- The value a running maximum starts from: the binary32 pattern of `-∞`, the same word in both programs. -/
def low : EReal := Ideal.ofBits .f32 0xFF800000#32

/-- The clamp is positive: its pattern is the normal number `(2^23 + 834764) · 2^(-63)`. -/
theorem eps_pos : 0 < eps := by
  unfold eps
  simp [Ideal.ofBits, Ideal.ieee]
  positivity

/-- The pattern of `1.0` denotes one. -/
theorem one_f32 : Ideal.ofBits .f32 0x3F800000#32 = 1 := IdealRules.sign_bit.ideal_onePat .f32

/-- Above zero the inverse square root is a non-negative real or zero: never `⊤`, never negative. -/
theorem rsqrt_range {y : EReal} (hy : 0 < y) : 0 ≤ Ideal.rsqrt y ∧ Ideal.rsqrt y ≠ ⊤ := by
  induction y using EReal.rec with
  | bot => exact absurd hy (not_lt_bot)
  | top => rw [Ideal.rsqrt_top]; exact ⟨le_refl _, EReal.zero_ne_top⟩
  | coe r =>
    have hr : 0 < r := EReal.coe_pos.mp hy
    rw [Ideal.rsqrt_coe, if_neg (not_lt.mpr hr.le), if_neg hr.ne']
    exact ⟨EReal.coe_nonneg.mpr (inv_nonneg.mpr (Real.sqrt_nonneg r)), EReal.coe_ne_top _⟩

/-- The clamped inverse norm of one token. -/
def invNorm (v : Fin 64 → EReal) : EReal := Ideal.rsqrt (max (∑ d, v d * v d) eps)

theorem invNorm_range (v : Fin 64 → EReal) : 0 ≤ invNorm v ∧ invNorm v ≠ ⊤ :=
  rsqrt_range (lt_of_lt_of_le eps_pos (le_max_right _ _))

/-- A non-negative factor that is not `⊤` moves across a finite sum of extended reals. -/
theorem sum_mul_const {ι : Type} (s : Finset ι) (f : ι → EReal) {r : EReal} (h0 : 0 ≤ r) (ht : r ≠ ⊤) :
    (∑ i ∈ s, f i * r) = (∑ i ∈ s, f i) * r := by
  classical
  induction s using Finset.induction_on with
  | empty => simp
  | insert a s ha ih =>
    rw [Finset.sum_insert ha, Finset.sum_insert ha, ih, EReal.right_distrib_of_nonneg_of_ne_top h0 ht]

/-- The cosine of slot `k` against token `l`: the raw inner product, then the token's inverse norm. -/
def cosv (q : Fin 8 → Fin 64 → EReal) (x : Fin 200 → Fin 64 → EReal) (k : Fin 8) (l : Fin 200) : EReal :=
  (∑ d, q k d * x l d) * invNorm (x l)

/-- The same from features scaled first: the inner product of the normalized token with the slot. -/
theorem cos_of_scaled (q : Fin 8 → Fin 64 → EReal) (x : Fin 200 → Fin 64 → EReal) (k : Fin 8) (l : Fin 200) :
    (∑ d, (x l d * invNorm (x l)) * q k d) = cosv q x k l := by
  unfold cosv
  rw [← sum_mul_const _ _ (invNorm_range (x l)).1 (invNorm_range (x l)).2]
  exact Finset.sum_congr rfl fun d _ => by rw [mul_comm (x l d * invNorm (x l)) (q k d), ← mul_assoc]

/-- The largest of 8 values, as both programs take it: a running maximum from `low`, then once more against `low`. -/
def top8 (c : Fin 8 → EReal) : EReal := max low ((Finset.univ : Finset (Fin 8)).fold max low c)

/-- The softmax weight of slot `k` among 8 values. -/
def soft (c : Fin 8 → EReal) (k : Fin 8) : EReal :=
  Ideal.div (Ideal.exp (c k - top8 c)) (∑ k', Ideal.exp (c k' - top8 c))

/-- The projected row: each slot's softmax-weighted sum of the tokens. -/
def rowOut (q : Fin 8 → Fin 64 → EReal) (x : Fin 200 → Fin 64 → EReal) (k : Fin 8) (d : Fin 64) : EReal :=
  ∑ l, soft (fun k' => cosv q x k' l) k * x l d

/-- Batch row `b` of a `[B, 200, 64]` array, as tokens by features. -/
def rowOf {B : Nat} (x : (⟨3, ![B, 200, 64]⟩ : Shape).Idx → EReal) (b : Fin B) : Fin 200 → Fin 64 → EReal :=
  fun l d => x (ValueIdx.ix3 b l d)

/-- An `[8, 64]` array as slots by features. -/
def slots (q : (⟨2, ![8, 64]⟩ : Shape).Idx → EReal) : Fin 8 → Fin 64 → EReal :=
  fun k d => q (ValueIdx.ix2 k d)

/-- The result, `[4096, 8, 64]`: entry `(b, k, d)` is the projected row `b` at slot `k`, feature `d`. -/
def outv (X : (⟨3, ![4096, 200, 64]⟩ : Shape).Idx → EReal) (Q : (⟨2, ![8, 64]⟩ : Shape).Idx → EReal) :
    (⟨3, ![4096, 8, 64]⟩ : Shape).Idx → EReal := fun i =>
  rowOut (slots Q) (rowOf X (⟨(i 0).val, (i 0).isLt⟩ : Fin 4096)) (⟨(i 1).val, (i 1).isLt⟩ : Fin 8) (⟨(i 2).val, (i 2).isLt⟩ : Fin 64)

theorem outv_at (X : (⟨3, ![4096, 200, 64]⟩ : Shape).Idx → EReal) (Q : (⟨2, ![8, 64]⟩ : Shape).Idx → EReal)
    (b : Fin 4096) (k : Fin 8) (d : Fin 64) : outv X Q (ValueIdx.ix3 b k d) = rowOut (slots Q) (rowOf X b) k d := rfl

/-- The same with slots by features flattened into 512 lanes, `[4096, 512]`: lane `j` is slot `j / 64`, feature `j % 64`. -/
def flat (X : (⟨3, ![4096, 200, 64]⟩ : Shape).Idx → EReal) (Q : (⟨2, ![8, 64]⟩ : Shape).Idx → EReal) :
    (⟨2, ![4096, 512]⟩ : Shape).Idx → EReal := fun i =>
  rowOut (slots Q) (rowOf X (⟨(i 0).val, (i 0).isLt⟩ : Fin 4096))
    (⟨(i 1).val / 64, by have := ValueIdx.idx2_lt1 i; omega⟩ : Fin 8) (⟨(i 1).val % 64, by omega⟩ : Fin 64)

theorem flat_at (X : (⟨3, ![4096, 200, 64]⟩ : Shape).Idx → EReal) (Q : (⟨2, ![8, 64]⟩ : Shape).Idx → EReal)
    (b : Fin 4096) (j : Fin 512) :
    flat X Q (ValueIdx.ix2 b j)
      = rowOut (slots Q) (rowOf X b) (⟨j.val / 64, by omega⟩ : Fin 8) (⟨j.val % 64, by omega⟩ : Fin 64) := rfl

/-- Lane `k · 64 + d` of the flattened result is entry `(k, d)`. -/
theorem flat_lane (X : (⟨3, ![4096, 200, 64]⟩ : Shape).Idx → EReal) (Q : (⟨2, ![8, 64]⟩ : Shape).Idx → EReal)
    (b : Fin 4096) (k : Fin 8) (d : Fin 64) :
    flat X Q (ValueIdx.ix2 b (⟨k.val * 64 + d.val, by omega⟩ : Fin 512)) = outv X Q (ValueIdx.ix3 b k d) := by
  rw [flat_at, outv_at]
  exact congr (congrArg (rowOut (slots Q) (rowOf X b)) (Fin.ext (by show (k.val * 64 + d.val) / 64 = k.val; omega)))
    (Fin.ext (by show (k.val * 64 + d.val) % 64 = d.val; omega))

end Cert.SlotProj

end
-- ==== Proof.RefRow.lean ====
/-
  The reference, read at an index: entry `(b, k, d)` of its result is the projected row `rowOut` of batch row `b` of the
  inputs against the normalized prototype (the reference's own stage, carried as given).

  The reference normalizes every token first (each feature times the token's clamped inverse norm), takes inner
  products with the slots, transposes to slots by tokens, and applies the softmax over the slots and the weighted sum
  over the tokens. Its operations are read one at a time through the generated stage lemmas; the running maximum over the
  slots is read here as a fold over the slot coordinate. The inner product of the normalized token is the cosine
  `cosv` by `cos_of_scaled`.
-/
import proofs.«103555_j21157008900255_2_alg».proof.Proof.Gen.ReferenceIdeal.Read
import proofs.«103555_j21157008900255_2_alg».proof.Proof.RowSpec
import Idealize.ShloMosaic.PureOps.Reduce

noncomputable section

namespace Cert.SlotProj.Ref

open Idealize.ShloMosaic Idealize.ShloMosaic.ValueIdx Cert.ReferenceIdeal Cert.ReferenceIdeal.Gen Cert.ReferenceIdeal.Read Cert.SlotProj

variable (x0 : (⟨S4096x200x64, .f32⟩ : BufTy).Contents (Elt Ideal)) (x1 : (⟨S8x64, .f32⟩ : BufTy).Contents (Elt Ideal))

/-- The broadcast inverse norm at `(b, l, d)` is token `l`'s of row `b`. -/
theorem inv_at (b : Fin 4096) (l : Fin 200) (d : Fin 64) :
    val_main_v6 (F := Ideal) x0 (ix3 b l d) = invNorm (rowOf x0 b l) := by
  have e : ∀ k : Fin 64, idx_main_v1 (idx_main_v2 (idx_main_v6 (ix3 b l d))) k = ix3 b l k := fun k =>
    funext fun a => Fin.ext (by match a with | ⟨0, _⟩ => rfl | ⟨1, _⟩ => rfl | ⟨2, _⟩ => rfl)
  rw [val_main_v6_apply, val_main_v5_apply, val_main_v4_apply, val_main_v2_apply, val_main_v3_apply,
    val_main_cst_0_apply, val_main_v1_apply, val_main_cst_apply]
  simp only [Ideal.hostUnary_rsqrt_def, Ideal.maximumf_def, Ideal.ofBits_def, Ideal.ofBits_zero_f32, zero_add,
    val_main_v0_apply, Ideal.mulf_def, e]
  rfl

/-- The normalized token's feature. -/
theorem scaled_at (b : Fin 4096) (l : Fin 200) (d : Fin 64) :
    val_main_v7 (F := Ideal) x0 (ix3 b l d) = rowOf x0 b l d * invNorm (rowOf x0 b l) := by
  rw [val_main_v7_apply, inv_at]; rfl

/-- The cosine of slot `k` against token `l` of row `b`. -/
theorem cos_at (b : Fin 4096) (k : Fin 8) (l : Fin 200) :
    val_main_v17 (F := Ideal) x0 x1 (ix3 b k l) = cosv (slots (val_main_v15 (F := Ideal) x1)) (rowOf x0 b) k l := by
  have el : ∀ d : Fin 64, lidx_main_v16 (idx_main_v17 (ix3 b k l)) d = ix3 b l d := fun d =>
    funext fun a => Fin.ext (by match a with | ⟨0, _⟩ => rfl | ⟨1, _⟩ => rfl | ⟨2, _⟩ => rfl)
  have er : ∀ d : Fin 64, ridx_main_v16 (idx_main_v17 (ix3 b k l)) d = ix2 k d := fun d =>
    funext fun a => Fin.ext (by match a with | ⟨0, _⟩ => rfl | ⟨1, _⟩ => rfl)
  rw [val_main_v17_apply, val_main_v16_apply, ← cos_of_scaled]
  refine Finset.sum_congr rfl fun d _ => ?_
  rw [el d, er d, scaled_at]
  rfl

/-- The slots' cosines against one token, as the 8 values the softmax is taken over. -/
def cosRow (b : Fin 4096) (l : Fin 200) : Fin 8 → EReal := fun k => val_main_v17 (F := Ideal) x0 x1 (ix3 b k l)

/-- The maximum the reference subtracts at token `l` of row `b`. -/
theorem top_at (b : Fin 4096) (l : Fin 200) :
    val_main_v20 (F := Ideal) x0 x1 (ix2 b l) = top8 (cosRow x0 x1 b l) := by
  have hr : S4096x8x200.Reduces [1] S4096x200 := by decide
  have elift : ∀ k : Fin 8, hr.lift (ix2 b l) k = ix3 b k l := fun k =>
    funext fun a => Fin.ext (by match a with | ⟨0, _⟩ => rfl | ⟨1, _⟩ => rfl | ⟨2, _⟩ => rfl)
  rw [val_main_v20_apply, val_main_v19_apply, val_main_cst_4_apply]
  unfold val_main_v18 top8 cosRow low
  generalize val_main_v17 (F := Ideal) x0 x1 = y
  refine congrArg (max (Ideal.ofBits .f32 0xFF800000#32)) ?_
  refine (Host.reduce_eq_fold_single (α := EReal) (FloatOps.maximumf (F := Ideal) (φ := .f32)) y (val_main_cst_3 (F := Ideal))
    reducesTo_S4096x8x200_S4096x200_d1 hr h_S_ (ix2 b l)).trans ?_
  exact congrArg (fun f : Fin 8 → EReal => Finset.fold max (Ideal.ofBits .f32 0xFF800000#32) f Finset.univ)
    (funext fun k => congrArg y (elift k))

/-- The exponential the reference takes at `(b, k, l)`. -/
theorem exp_at (b : Fin 4096) (k : Fin 8) (l : Fin 200) :
    val_main_v24 (F := Ideal) x0 x1 (ix3 b k l) = Ideal.exp (cosRow x0 x1 b l k - top8 (cosRow x0 x1 b l)) := by
  have e : idx_main_v21 (idx_main_v22 (ix3 b k l)) = ix2 b l :=
    funext fun a => Fin.ext (by match a with | ⟨0, _⟩ => rfl | ⟨1, _⟩ => rfl)
  rw [val_main_v24_apply, val_main_v23_apply, val_main_v22_apply, val_main_v21_apply, e, top_at]
  rfl

/-- The sum of the exponentials over the slots, broadcast back to `(b, k, l)`. -/
theorem sum_at (b : Fin 4096) (k : Fin 8) (l : Fin 200) :
    val_main_v27 (F := Ideal) x0 x1 (ix3 b k l) = ∑ k' : Fin 8, Ideal.exp (cosRow x0 x1 b l k' - top8 (cosRow x0 x1 b l)) := by
  have e : ∀ k' : Fin 8, idx_main_v25 (idx_main_v26 (idx_main_v27 (ix3 b k l))) k' = ix3 b k' l := fun k' =>
    funext fun a => Fin.ext (by match a with | ⟨0, _⟩ => rfl | ⟨1, _⟩ => rfl | ⟨2, _⟩ => rfl)
  rw [val_main_v27_apply, val_main_v26_apply, val_main_v25_apply, val_main_cst_5_apply]
  simp only [Ideal.ofBits_def, Ideal.ofBits_zero_f32, zero_add, e, exp_at]

/-- The softmax weight of slot `k` at token `l` of row `b`. -/
theorem soft_at (b : Fin 4096) (k : Fin 8) (l : Fin 200) :
    val_main_v28 (F := Ideal) x0 x1 (ix3 b k l) = soft (cosRow x0 x1 b l) k := by
  rw [val_main_v28_apply, sum_at, exp_at]
  rfl

/-- THE REFERENCE AT AN INDEX: entry `(b, k, d)` of its result is the projected row. -/
theorem ref_at (b : Fin 4096) (k : Fin 8) (d : Fin 64) :
    val_main_v29 (F := Ideal) x0 x1 (ix3 b k d) = rowOut (slots (val_main_v15 (F := Ideal) x1)) (rowOf x0 b) k d := by
  have el : ∀ l : Fin 200, lidx_main_v29 (ix3 b k d) l = ix3 b k l := fun l =>
    funext fun a => Fin.ext (by match a with | ⟨0, _⟩ => rfl | ⟨1, _⟩ => rfl | ⟨2, _⟩ => rfl)
  have er : ∀ l : Fin 200, ridx_main_v29 (ix3 b k d) l = ix3 b l d := fun l =>
    funext fun a => Fin.ext (by match a with | ⟨0, _⟩ => rfl | ⟨1, _⟩ => rfl | ⟨2, _⟩ => rfl)
  have ec : ∀ l : Fin 200, cosRow x0 x1 b l = fun k' => cosv (slots (val_main_v15 (F := Ideal) x1)) (rowOf x0 b) k' l := fun l =>
    funext fun k' => cos_at x0 x1 b k' l
  rw [val_main_v29_apply]
  unfold rowOut
  refine Finset.sum_congr rfl fun l _ => ?_
  rw [el l, er l, soft_at, ec l]
  rfl

end Cert.SlotProj.Ref

end
-- ==== Proof.KernelRow.lean ====
/-
  The kernel body's stored value, read at an index: entry `(b, j)` of the `[64, 512]` block it stores is the projected row
  `rowOut` of row `b` of the loaded `[64, 200, 64]` block against the loaded prototype, at slot `j / 64` and feature
  `j % 64` (the body flattens slots by features into 512 lanes).

  The body's arithmetic is cut into named stages — raw inner products, inverse norms, cosines, exponentials, weights —
  and the stored value is their composition. Each stage is read at an index: a batched matrix product as the sum over
  its contracted coordinate, a sum or a maximum over the slot axis as the sum or the running maximum over the slot
  coordinate, a broadcast along the slot axis as the value at slot `0`. The inverse norms are themselves a matrix
  product of a row of ones against the squares: `∑ d, 1 · x²`.
-/
import proofs.«103555_j21157008900255_2_alg».proof.Proof.Gen.KernelIdeal.Skeleton
import proofs.«103555_j21157008900255_2_alg».proof.Proof.RowSpec
import Idealize.ShloMosaic.Lib.Pipeline.Value
import Idealize.ShloMosaic.Lib.ValueIdx
import Idealize.ShloMosaic.PureOps.Ideal.Laws

noncomputable section

namespace Cert.SlotProj.Kern

open Idealize.ShloMosaic Idealize.ShloMosaic.ValueIdx Cert.KernelIdeal Cert.KernelIdeal.Gen Cert.SlotProj

/-! ## The three batched matrix products, each at an index -/

/-- Slots by features against tokens by features, per batch row: the operand indices. -/
theorem raw_lhs_0 (i : S64x8x200.Idx) (q : dot_S64x8x64_S64x200x64_S64x8x200_2_2_1_1_0_0.contr.Idx) : (dot_S64x8x64_S64x200x64_S64x8x200_2_2_1_1_0_0.lhsIdx i q 0).val = (i 0).val := by
  unfold DotDims.lhsIdx
  rw [dif_pos (show (0 : Fin S64x8x64.rank) ∈ dot_S64x8x64_S64x200x64_S64x8x200_2_2_1_1_0_0.lhsBatch by decide)]
  rfl
theorem raw_lhs_1 (i : S64x8x200.Idx) (q : dot_S64x8x64_S64x200x64_S64x8x200_2_2_1_1_0_0.contr.Idx) : (dot_S64x8x64_S64x200x64_S64x8x200_2_2_1_1_0_0.lhsIdx i q 1).val = (i 1).val := by
  unfold DotDims.lhsIdx
  rw [dif_neg (show ¬(1 : Fin S64x8x64.rank) ∈ dot_S64x8x64_S64x200x64_S64x8x200_2_2_1_1_0_0.lhsBatch by decide), dif_pos (show (1 : Fin S64x8x64.rank) ∈ dot_S64x8x64_S64x200x64_S64x8x200_2_2_1_1_0_0.lhsNonContracting by decide)]
  rfl
theorem raw_lhs_2 (i : S64x8x200.Idx) (q : dot_S64x8x64_S64x200x64_S64x8x200_2_2_1_1_0_0.contr.Idx) : (dot_S64x8x64_S64x200x64_S64x8x200_2_2_1_1_0_0.lhsIdx i q 2).val = (q ⟨0, by decide⟩).val :=
  dot_S64x8x64_S64x200x64_S64x8x200_2_2_1_1_0_0.lhsIdx_val_of_single rfl i q
theorem raw_rhs_0 (i : S64x8x200.Idx) (q : dot_S64x8x64_S64x200x64_S64x8x200_2_2_1_1_0_0.contr.Idx) : (dot_S64x8x64_S64x200x64_S64x8x200_2_2_1_1_0_0.rhsIdx i q 0).val = (i 0).val := by
  unfold DotDims.rhsIdx
  rw [dif_pos (show (0 : Fin S64x200x64.rank) ∈ dot_S64x8x64_S64x200x64_S64x8x200_2_2_1_1_0_0.rhsBatch by decide)]
  rfl
theorem raw_rhs_1 (i : S64x8x200.Idx) (q : dot_S64x8x64_S64x200x64_S64x8x200_2_2_1_1_0_0.contr.Idx) : (dot_S64x8x64_S64x200x64_S64x8x200_2_2_1_1_0_0.rhsIdx i q 1).val = (i 2).val := by
  unfold DotDims.rhsIdx
  rw [dif_neg (show ¬(1 : Fin S64x200x64.rank) ∈ dot_S64x8x64_S64x200x64_S64x8x200_2_2_1_1_0_0.rhsBatch by decide), dif_pos (show (1 : Fin S64x200x64.rank) ∈ dot_S64x8x64_S64x200x64_S64x8x200_2_2_1_1_0_0.rhsNonContracting by decide)]
  rfl
theorem raw_rhs_2 (i : S64x8x200.Idx) (q : dot_S64x8x64_S64x200x64_S64x8x200_2_2_1_1_0_0.contr.Idx) : (dot_S64x8x64_S64x200x64_S64x8x200_2_2_1_1_0_0.rhsIdx i q 2).val = (q ⟨0, by decide⟩).val :=
  dot_S64x8x64_S64x200x64_S64x8x200_2_2_1_1_0_0.rhsIdx_val_of_single rfl i q

/-- The raw inner product of slot `k` with token `l` in row `b`. -/
theorem raw_mm (a : FVec Ideal S64x8x64 .f32) (x : FVec Ideal S64x200x64 .f32) (b : Fin 64) (k : Fin 8) (l : Fin 200) :
    matmul dot_S64x8x64_S64x200x64_S64x8x200_2_2_1_1_0_0 none a x (constant (F := Ideal) S64x8x200 .f32 0x00000000#32) (ix3 b k l)
      = ∑ d : Fin 64, a (ix3 b k d) * x (ix3 b l d) := by
  simp only [matmul]
  rw [Ideal.matmul_constant_zero_apply, ← Equiv.sum_comp (contrEquiv1 dot_S64x8x64_S64x200x64_S64x8x200_2_2_1_1_0_0 64 rfl rfl).symm]
  refine Finset.sum_congr rfl fun d _ => ?_
  have hk := contrEquiv1_symm_val dot_S64x8x64_S64x200x64_S64x8x200_2_2_1_1_0_0 64 rfl rfl d
  have el : dot_S64x8x64_S64x200x64_S64x8x200_2_2_1_1_0_0.lhsIdx (ix3 b k l) ((contrEquiv1 dot_S64x8x64_S64x200x64_S64x8x200_2_2_1_1_0_0 64 rfl rfl).symm d) = ix3 b k d := funext fun c => Fin.ext (by
    match c with
    | ⟨0, _⟩ => exact raw_lhs_0 _ _
    | ⟨1, _⟩ => exact raw_lhs_1 _ _
    | ⟨2, _⟩ => exact (raw_lhs_2 _ _).trans hk)
  have er : dot_S64x8x64_S64x200x64_S64x8x200_2_2_1_1_0_0.rhsIdx (ix3 b k l) ((contrEquiv1 dot_S64x8x64_S64x200x64_S64x8x200_2_2_1_1_0_0 64 rfl rfl).symm d) = ix3 b l d := funext fun c => Fin.ext (by
    match c with
    | ⟨0, _⟩ => exact raw_rhs_0 _ _
    | ⟨1, _⟩ => exact raw_rhs_1 _ _
    | ⟨2, _⟩ => exact (raw_rhs_2 _ _).trans hk)
  rw [el, er]

/-- A row of ones against tokens by features, per batch row: the operand indices. -/
theorem sq_lhs_0 (i : S64x1x200.Idx) (q : dot_S64x1x64_S64x200x64_S64x1x200_2_2_1_1_0_0.contr.Idx) : (dot_S64x1x64_S64x200x64_S64x1x200_2_2_1_1_0_0.lhsIdx i q 0).val = (i 0).val := by
  unfold DotDims.lhsIdx
  rw [dif_pos (show (0 : Fin S64x1x64.rank) ∈ dot_S64x1x64_S64x200x64_S64x1x200_2_2_1_1_0_0.lhsBatch by decide)]
  rfl
theorem sq_lhs_1 (i : S64x1x200.Idx) (q : dot_S64x1x64_S64x200x64_S64x1x200_2_2_1_1_0_0.contr.Idx) : (dot_S64x1x64_S64x200x64_S64x1x200_2_2_1_1_0_0.lhsIdx i q 1).val = (i 1).val := by
  unfold DotDims.lhsIdx
  rw [dif_neg (show ¬(1 : Fin S64x1x64.rank) ∈ dot_S64x1x64_S64x200x64_S64x1x200_2_2_1_1_0_0.lhsBatch by decide), dif_pos (show (1 : Fin S64x1x64.rank) ∈ dot_S64x1x64_S64x200x64_S64x1x200_2_2_1_1_0_0.lhsNonContracting by decide)]
  rfl
theorem sq_lhs_2 (i : S64x1x200.Idx) (q : dot_S64x1x64_S64x200x64_S64x1x200_2_2_1_1_0_0.contr.Idx) : (dot_S64x1x64_S64x200x64_S64x1x200_2_2_1_1_0_0.lhsIdx i q 2).val = (q ⟨0, by decide⟩).val :=
  dot_S64x1x64_S64x200x64_S64x1x200_2_2_1_1_0_0.lhsIdx_val_of_single rfl i q
theorem sq_rhs_0 (i : S64x1x200.Idx) (q : dot_S64x1x64_S64x200x64_S64x1x200_2_2_1_1_0_0.contr.Idx) : (dot_S64x1x64_S64x200x64_S64x1x200_2_2_1_1_0_0.rhsIdx i q 0).val = (i 0).val := by
  unfold DotDims.rhsIdx
  rw [dif_pos (show (0 : Fin S64x200x64.rank) ∈ dot_S64x1x64_S64x200x64_S64x1x200_2_2_1_1_0_0.rhsBatch by decide)]
  rfl
theorem sq_rhs_1 (i : S64x1x200.Idx) (q : dot_S64x1x64_S64x200x64_S64x1x200_2_2_1_1_0_0.contr.Idx) : (dot_S64x1x64_S64x200x64_S64x1x200_2_2_1_1_0_0.rhsIdx i q 1).val = (i 2).val := by
  unfold DotDims.rhsIdx
  rw [dif_neg (show ¬(1 : Fin S64x200x64.rank) ∈ dot_S64x1x64_S64x200x64_S64x1x200_2_2_1_1_0_0.rhsBatch by decide), dif_pos (show (1 : Fin S64x200x64.rank) ∈ dot_S64x1x64_S64x200x64_S64x1x200_2_2_1_1_0_0.rhsNonContracting by decide)]
  rfl
theorem sq_rhs_2 (i : S64x1x200.Idx) (q : dot_S64x1x64_S64x200x64_S64x1x200_2_2_1_1_0_0.contr.Idx) : (dot_S64x1x64_S64x200x64_S64x1x200_2_2_1_1_0_0.rhsIdx i q 2).val = (q ⟨0, by decide⟩).val :=
  dot_S64x1x64_S64x200x64_S64x1x200_2_2_1_1_0_0.rhsIdx_val_of_single rfl i q

/-- The row of ones against token `l` of row `b`. -/
theorem sq_mm (a : FVec Ideal S64x1x64 .f32) (x : FVec Ideal S64x200x64 .f32) (b : Fin 64) (l : Fin 200) :
    matmul dot_S64x1x64_S64x200x64_S64x1x200_2_2_1_1_0_0 none a x (constant (F := Ideal) S64x1x200 .f32 0x00000000#32) (ix3 b (0 : Fin 1) l)
      = ∑ d : Fin 64, a (ix3 b (0 : Fin 1) d) * x (ix3 b l d) := by
  simp only [matmul]
  rw [Ideal.matmul_constant_zero_apply, ← Equiv.sum_comp (contrEquiv1 dot_S64x1x64_S64x200x64_S64x1x200_2_2_1_1_0_0 64 rfl rfl).symm]
  refine Finset.sum_congr rfl fun d _ => ?_
  have hk := contrEquiv1_symm_val dot_S64x1x64_S64x200x64_S64x1x200_2_2_1_1_0_0 64 rfl rfl d
  have el : dot_S64x1x64_S64x200x64_S64x1x200_2_2_1_1_0_0.lhsIdx (ix3 b (0 : Fin 1) l) ((contrEquiv1 dot_S64x1x64_S64x200x64_S64x1x200_2_2_1_1_0_0 64 rfl rfl).symm d) = ix3 b (0 : Fin 1) d := funext fun c => Fin.ext (by
    match c with
    | ⟨0, _⟩ => exact sq_lhs_0 _ _
    | ⟨1, _⟩ => exact sq_lhs_1 _ _
    | ⟨2, _⟩ => exact (sq_lhs_2 _ _).trans hk)
  have er : dot_S64x1x64_S64x200x64_S64x1x200_2_2_1_1_0_0.rhsIdx (ix3 b (0 : Fin 1) l) ((contrEquiv1 dot_S64x1x64_S64x200x64_S64x1x200_2_2_1_1_0_0 64 rfl rfl).symm d) = ix3 b l d := funext fun c => Fin.ext (by
    match c with
    | ⟨0, _⟩ => exact sq_rhs_0 _ _
    | ⟨1, _⟩ => exact sq_rhs_1 _ _
    | ⟨2, _⟩ => exact (sq_rhs_2 _ _).trans hk)
  rw [el, er]

/-- Slots by tokens against tokens by features, per batch row: the operand indices. -/
theorem out_lhs_0 (i : S64x8x64.Idx) (q : dot_S64x8x200_S64x200x64_S64x8x64_2_1_1_2_0_0.contr.Idx) : (dot_S64x8x200_S64x200x64_S64x8x64_2_1_1_2_0_0.lhsIdx i q 0).val = (i 0).val := by
  unfold DotDims.lhsIdx
  rw [dif_pos (show (0 : Fin S64x8x200.rank) ∈ dot_S64x8x200_S64x200x64_S64x8x64_2_1_1_2_0_0.lhsBatch by decide)]
  rfl
theorem out_lhs_1 (i : S64x8x64.Idx) (q : dot_S64x8x200_S64x200x64_S64x8x64_2_1_1_2_0_0.contr.Idx) : (dot_S64x8x200_S64x200x64_S64x8x64_2_1_1_2_0_0.lhsIdx i q 1).val = (i 1).val := by
  unfold DotDims.lhsIdx
  rw [dif_neg (show ¬(1 : Fin S64x8x200.rank) ∈ dot_S64x8x200_S64x200x64_S64x8x64_2_1_1_2_0_0.lhsBatch by decide), dif_pos (show (1 : Fin S64x8x200.rank) ∈ dot_S64x8x200_S64x200x64_S64x8x64_2_1_1_2_0_0.lhsNonContracting by decide)]
  rfl
theorem out_lhs_2 (i : S64x8x64.Idx) (q : dot_S64x8x200_S64x200x64_S64x8x64_2_1_1_2_0_0.contr.Idx) : (dot_S64x8x200_S64x200x64_S64x8x64_2_1_1_2_0_0.lhsIdx i q 2).val = (q ⟨0, by decide⟩).val :=
  dot_S64x8x200_S64x200x64_S64x8x64_2_1_1_2_0_0.lhsIdx_val_of_single rfl i q
theorem out_rhs_0 (i : S64x8x64.Idx) (q : dot_S64x8x200_S64x200x64_S64x8x64_2_1_1_2_0_0.contr.Idx) : (dot_S64x8x200_S64x200x64_S64x8x64_2_1_1_2_0_0.rhsIdx i q 0).val = (i 0).val := by
  unfold DotDims.rhsIdx
  rw [dif_pos (show (0 : Fin S64x200x64.rank) ∈ dot_S64x8x200_S64x200x64_S64x8x64_2_1_1_2_0_0.rhsBatch by decide)]
  rfl
theorem out_rhs_1 (i : S64x8x64.Idx) (q : dot_S64x8x200_S64x200x64_S64x8x64_2_1_1_2_0_0.contr.Idx) : (dot_S64x8x200_S64x200x64_S64x8x64_2_1_1_2_0_0.rhsIdx i q 1).val = (q ⟨0, by decide⟩).val :=
  dot_S64x8x200_S64x200x64_S64x8x64_2_1_1_2_0_0.rhsIdx_val_of_single rfl i q
theorem out_rhs_2 (i : S64x8x64.Idx) (q : dot_S64x8x200_S64x200x64_S64x8x64_2_1_1_2_0_0.contr.Idx) : (dot_S64x8x200_S64x200x64_S64x8x64_2_1_1_2_0_0.rhsIdx i q 2).val = (i 2).val := by
  unfold DotDims.rhsIdx
  rw [dif_neg (show ¬(2 : Fin S64x200x64.rank) ∈ dot_S64x8x200_S64x200x64_S64x8x64_2_1_1_2_0_0.rhsBatch by decide), dif_pos (show (2 : Fin S64x200x64.rank) ∈ dot_S64x8x200_S64x200x64_S64x8x64_2_1_1_2_0_0.rhsNonContracting by decide)]
  rfl

/-- The weighted sum of the tokens of row `b` for slot `k`, at feature `d`. -/
theorem out_mm (a : FVec Ideal S64x8x200 .f32) (x : FVec Ideal S64x200x64 .f32) (b : Fin 64) (k : Fin 8) (d : Fin 64) :
    matmul dot_S64x8x200_S64x200x64_S64x8x64_2_1_1_2_0_0 none a x (constant (F := Ideal) S64x8x64 .f32 0x00000000#32) (ix3 b k d)
      = ∑ l : Fin 200, a (ix3 b k l) * x (ix3 b l d) := by
  simp only [matmul]
  rw [Ideal.matmul_constant_zero_apply, ← Equiv.sum_comp (contrEquiv1 dot_S64x8x200_S64x200x64_S64x8x64_2_1_1_2_0_0 200 rfl rfl).symm]
  refine Finset.sum_congr rfl fun l _ => ?_
  have hk := contrEquiv1_symm_val dot_S64x8x200_S64x200x64_S64x8x64_2_1_1_2_0_0 200 rfl rfl l
  have el : dot_S64x8x200_S64x200x64_S64x8x64_2_1_1_2_0_0.lhsIdx (ix3 b k d) ((contrEquiv1 dot_S64x8x200_S64x200x64_S64x8x64_2_1_1_2_0_0 200 rfl rfl).symm l) = ix3 b k l := funext fun c => Fin.ext (by
    match c with
    | ⟨0, _⟩ => exact out_lhs_0 _ _
    | ⟨1, _⟩ => exact out_lhs_1 _ _
    | ⟨2, _⟩ => exact (out_lhs_2 _ _).trans hk)
  have er : dot_S64x8x200_S64x200x64_S64x8x64_2_1_1_2_0_0.rhsIdx (ix3 b k d) ((contrEquiv1 dot_S64x8x200_S64x200x64_S64x8x64_2_1_1_2_0_0 200 rfl rfl).symm l) = ix3 b l d := funext fun c => Fin.ext (by
    match c with
    | ⟨0, _⟩ => exact out_rhs_0 _ _
    | ⟨1, _⟩ => exact (out_rhs_1 _ _).trans hk
    | ⟨2, _⟩ => exact out_rhs_2 _ _)
  rw [el, er]

/-! ## Layout operations and reductions over the slot axis, each at an index -/

/-- The prototype broadcast over the batch rows reads the prototype. -/
theorem proto_at (x1 : FVec Ideal S8x64 .f32) (h1 : S8x64.ShapeCasts S8x64) (h2 : S8x64.ShapeCasts S1x8x64)
    (h3 : S1x8x64.Broadcasts S64x8x64) (b : Fin 64) (k : Fin 8) (d : Fin 64) :
    broadcastTo S64x8x64 (shapeCast S1x8x64 (shapeCast S8x64 x1 h1) h2) h3 (ix3 b k d) = x1 (ix2 k d) := by
  rw [shapeCast_self]
  refine (broadcastTo_apply _ h3 (ix3 b k d) (ix3 (0 : Fin 1) k d) (fun a => ?_)).trans ?_
  · match a with
    | ⟨0, _⟩ => show 0 = if (1 : Nat) = 1 then 0 else b.val; rw [if_pos rfl]
    | ⟨1, _⟩ => show k.val = if (8 : Nat) = 1 then 0 else k.val; rw [if_neg (by decide)]
    | ⟨2, _⟩ => show d.val = if (64 : Nat) = 1 then 0 else d.val; rw [if_neg (by decide)]
  · refine shapeCast_apply x1 h2 (ix3 (0 : Fin 1) k d) (ix2 k d) ?_
    rw [Shape.rowMajor_val_two, Shape.rowMajor_val_three]
    show k.val * 64 + d.val = (0 * 8 + k.val) * 64 + d.val
    omega

/-- A value per (row, token) broadcast along the slot axis reads slot `0`. -/
theorem along_slots (v : FVec Ideal S64x1x200 .f32) (h : S64x1x200.Broadcasts S64x8x200) (b : Fin 64) (k : Fin 8) (l : Fin 200) :
    broadcastTo S64x8x200 v h (ix3 b k l) = v (ix3 b (0 : Fin 1) l) :=
  broadcastTo_apply v h (ix3 b k l) (ix3 b (0 : Fin 1) l) (fun a => by
    match a with
    | ⟨0, _⟩ => show b.val = if (64 : Nat) = 1 then 0 else b.val; rw [if_neg (by decide)]
    | ⟨1, _⟩ => show 0 = if (1 : Nat) = 1 then 0 else k.val; rw [if_pos rfl]
    | ⟨2, _⟩ => show l.val = if (200 : Nat) = 1 then 0 else l.val; rw [if_neg (by decide)])

/-- A `[64, 200]` value given a unit slot axis. -/
theorem unit_slot (v : FVec Ideal S64x200 .f32) (h : S64x200.ShapeCasts S64x1x200) (b : Fin 64) (l : Fin 200) :
    shapeCast S64x1x200 v h (ix3 b (0 : Fin 1) l) = v (ix2 b l) := by
  refine shapeCast_apply v h (ix3 b (0 : Fin 1) l) (ix2 b l) ?_
  rw [Shape.rowMajor_val_two, Shape.rowMajor_val_three]
  show b.val * 200 + l.val = (b.val * 1 + 0) * 200 + l.val
  omega

/-- Slots by features flattened into 512 lanes: lane `j` is slot `j / 64`, feature `j % 64`. -/
theorem lanes_at (v : FVec Ideal S64x8x64 .f32) (h : S64x8x64.ShapeCasts S64x512) (b : Fin 64) (j : Fin 512) :
    shapeCast S64x512 v h (ix2 b j) = v (ix3 b (⟨j.val / 64, by omega⟩ : Fin 8) (⟨j.val % 64, by omega⟩ : Fin 64)) := by
  refine shapeCast_apply v h (ix2 b j) _ ?_
  rw [Shape.rowMajor_val_two, Shape.rowMajor_val_three]
  show (b.val * 8 + j.val / 64) * 64 + j.val % 64 = b.val * 512 + j.val
  omega

/-- The index a reduction over the slot axis reads at slot `k`. -/
theorem lift_slot (h : S64x8x200.Reduces [1] S64x200) (b : Fin 64) (l : Fin 200) (k : Fin 8) : h.lift (ix2 b l) k = ix3 b k l :=
  funext fun a => Fin.ext (by match a with | ⟨0, _⟩ => rfl | ⟨1, _⟩ => rfl | ⟨2, _⟩ => rfl)

/-- The sum over the slot axis. -/
theorem sum_slots (v : FVec Ideal S64x8x200 .f32) (h : S64x8x200.Reduces [1] S64x200) (hφ : FKind.Formats .f32)
    (hacc : (0x00000000#32 : BitVec 32) = FKind.add.neutral .f32 hφ) (b : Fin 64) (l : Fin 200) :
    multiReduction .add [1] S64x200 v 0x00000000#32 h hφ hacc (ix2 b l) = ∑ k : Fin 8, v (ix3 b k l) :=
  (Ideal.multiReduction_add_single v 0x00000000#32 h hφ hacc (ix2 b l)).trans
    (Finset.sum_congr rfl fun k _ => congrArg v (lift_slot h b l k))

/-- The running maximum over the slot axis, from the starting value. -/
theorem max_slots (v : FVec Ideal S64x8x200 .f32) (h : S64x8x200.Reduces [1] S64x200) (hφ : FKind.Formats .f32)
    (hacc : (0xFF800000#32 : BitVec 32) = FKind.maximumf.neutral .f32 hφ) (b : Fin 64) (l : Fin 200) :
    multiReduction .maximumf [1] S64x200 v 0xFF800000#32 h hφ hacc (ix2 b l)
      = (Finset.univ : Finset (Fin 8)).fold max low (fun k => v (ix3 b k l)) :=
  (Ideal.multiReduction_maximumf_single v 0xFF800000#32 h hφ hacc (ix2 b l)).trans
    (congrArg (fun f : Fin 8 → EReal => Finset.fold max low f Finset.univ) (funext fun k => congrArg v (lift_slot h b l k)))

/-! ## The stages of the body -/

/-- The raw inner products, slots by tokens per row. -/
def kraw (x0 : FVec Ideal S64x200x64 .f32) (x1 : FVec Ideal S8x64 .f32) : FVec Ideal S64x8x200 .f32 :=
  matmul dot_S64x8x64_S64x200x64_S64x8x200_2_2_1_1_0_0 none
    (broadcastTo S64x8x64 (shapeCast S1x8x64 (shapeCast S8x64 x1 shapeCasts_S8x64_S8x64) shapeCasts_S8x64_S1x8x64) broadcasts_S1x8x64_S64x8x64)
    x0 (constant (F := Ideal) S64x8x200 .f32 0x00000000#32)

/-- The clamped inverse norms, one per (row, token). -/
def kinv (x0 : FVec Ideal S64x200x64 .f32) : FVec Ideal S64x1x200 .f32 :=
  rsqrt (maximumf (matmul dot_S64x1x64_S64x200x64_S64x1x200_2_2_1_1_0_0 none (broadcast S64x1x64 (Scalar.ofBits (F := Ideal) .f32 0x3F800000#32)) (mulf x0 x0)
      (constant (F := Ideal) S64x1x200 .f32 0x00000000#32))
    (broadcast S64x1x200 (Scalar.ofBits (F := Ideal) .f32 0x2B8CBCCC#32)))

/-- The cosines. -/
def kcos (x0 : FVec Ideal S64x200x64 .f32) (x1 : FVec Ideal S8x64 .f32) : FVec Ideal S64x8x200 .f32 :=
  mulf (kraw x0 x1) (broadcastTo S64x8x200 (kinv x0) broadcasts_S64x1x200_S64x8x200)

/-- The exponentials of the cosines less their maximum over the slots. -/
def kexp (c : FVec Ideal S64x8x200 .f32) : FVec Ideal S64x8x200 .f32 :=
  exp (subf c (broadcastTo S64x8x200 (shapeCast S64x1x200
    (maximumf (broadcast S64x200 (Scalar.ofBits (F := Ideal) .f32 0xFF800000#32))
      (multiReduction .maximumf [1] S64x200 c 0xFF800000#32 reduces_S64x8x200_S64x200 (.inl rfl) rfl))
    shapeCasts_S64x200_S64x1x200) broadcasts_S64x1x200_S64x8x200))

/-- The softmax weights. -/
def kattn (c : FVec Ideal S64x8x200 .f32) : FVec Ideal S64x8x200 .f32 :=
  divf (kexp c) (broadcastTo S64x8x200 (shapeCast S64x1x200
    (multiReduction .add [1] S64x200 (kexp c) 0x00000000#32 reduces_S64x8x200_S64x200 (.inl rfl) rfl)
    shapeCasts_S64x200_S64x1x200) broadcasts_S64x1x200_S64x8x200)

/-- The stored value is the weighted sums, flattened. -/
theorem pay_eq (x0 : FVec Ideal S64x200x64 .f32) (x1 : FVec Ideal S8x64 .f32) :
    k0_pay1 (F := Ideal) x0 x1
      = shapeCast S64x512 (matmul dot_S64x8x200_S64x200x64_S64x8x64_2_1_1_2_0_0 none (kattn (kcos x0 x1)) x0 (constant (F := Ideal) S64x8x64 .f32 0x00000000#32))
          shapeCasts_S64x8x64_S64x512 := rfl

/-! ## The stages at an index -/

theorem kraw_at (x0 : FVec Ideal S64x200x64 .f32) (x1 : FVec Ideal S8x64 .f32) (b : Fin 64) (k : Fin 8) (l : Fin 200) :
    kraw x0 x1 (ix3 b k l) = ∑ d : Fin 64, slots x1 k d * rowOf x0 b l d := by
  unfold kraw
  rw [raw_mm]
  exact Finset.sum_congr rfl fun d _ => by rw [proto_at]; rfl

theorem kinv_at (x0 : FVec Ideal S64x200x64 .f32) (b : Fin 64) (l : Fin 200) :
    kinv x0 (ix3 b (0 : Fin 1) l) = invNorm (rowOf x0 b l) := by
  unfold kinv invNorm
  show Ideal.rsqrt (max (matmul dot_S64x1x64_S64x200x64_S64x1x200_2_2_1_1_0_0 none (broadcast S64x1x64 (Scalar.ofBits (F := Ideal) .f32 0x3F800000#32)) (mulf x0 x0)
      (constant (F := Ideal) S64x1x200 .f32 0x00000000#32) (ix3 b (0 : Fin 1) l)) eps) = _
  rw [sq_mm]
  refine congrArg (fun s => Ideal.rsqrt (max s eps)) (Finset.sum_congr rfl fun d _ => ?_)
  show Ideal.ofBits .f32 0x3F800000#32 * (x0 (ix3 b l d) * x0 (ix3 b l d)) = _
  rw [one_f32, one_mul]
  rfl

theorem kcos_at (x0 : FVec Ideal S64x200x64 .f32) (x1 : FVec Ideal S8x64 .f32) (b : Fin 64) (k : Fin 8) (l : Fin 200) :
    kcos x0 x1 (ix3 b k l) = cosv (slots x1) (rowOf x0 b) k l := by
  unfold kcos cosv
  show kraw x0 x1 (ix3 b k l) * broadcastTo S64x8x200 (kinv x0) broadcasts_S64x1x200_S64x8x200 (ix3 b k l) = _
  rw [kraw_at, along_slots, kinv_at]

/-- The 8 values of one (row, token) of a slots-by-tokens array. -/
def col (c : FVec Ideal S64x8x200 .f32) (b : Fin 64) (l : Fin 200) : Fin 8 → EReal := fun k => c (ix3 b k l)

theorem kexp_at (c : FVec Ideal S64x8x200 .f32) (b : Fin 64) (k : Fin 8) (l : Fin 200) :
    kexp c (ix3 b k l) = Ideal.exp (col c b l k - top8 (col c b l)) := by
  unfold kexp
  show Ideal.exp (c (ix3 b k l) - broadcastTo S64x8x200 _ broadcasts_S64x1x200_S64x8x200 (ix3 b k l)) = _
  rw [along_slots, unit_slot]
  exact congrArg (fun z => Ideal.exp (c (ix3 b k l) - max low z)) (max_slots c _ _ _ b l)

theorem kattn_at (c : FVec Ideal S64x8x200 .f32) (b : Fin 64) (k : Fin 8) (l : Fin 200) :
    kattn c (ix3 b k l) = soft (col c b l) k := by
  unfold kattn soft
  show Ideal.div (kexp c (ix3 b k l)) (broadcastTo S64x8x200 _ broadcasts_S64x1x200_S64x8x200 (ix3 b k l)) = _
  rw [along_slots, unit_slot, kexp_at]
  exact congrArg (Ideal.div _) ((sum_slots (kexp c) _ _ _ b l).trans (Finset.sum_congr rfl fun k' _ => kexp_at c b k' l))

/-- THE STORED VALUE AT AN INDEX. -/
theorem pay_at (x0 : FVec Ideal S64x200x64 .f32) (x1 : FVec Ideal S8x64 .f32) (b : Fin 64) (j : Fin 512) :
    k0_pay1 (F := Ideal) x0 x1 (ix2 b j)
      = rowOut (slots x1) (rowOf x0 b) (⟨j.val / 64, by omega⟩ : Fin 8) (⟨j.val % 64, by omega⟩ : Fin 64) := by
  rw [pay_eq, lanes_at, out_mm]
  unfold rowOut
  refine Finset.sum_congr rfl fun l _ => ?_
  rw [kattn_at]
  have ec : col (kcos x0 x1) b l = fun k' => cosv (slots x1) (rowOf x0 b) k' l := funext fun k' => kcos_at x0 x1 b k' l
  rw [ec]
  rfl

end Cert.SlotProj.Kern

end
-- ==== Proof.KernelArray.lean ====
/-
  From the body's blocks to the result array of the idealized kernel program.

  The grid has 64 points; at point `t` the body reads batch rows `64 t … 64 t + 63` of the inputs (all tokens, all
  features) and the whole normalized prototype, and writes rows `64 t … 64 t + 63` of a `[4096, 512]` array (all 512
  lanes). What a point writes is therefore the block of ONE function of the arrays, `flat`: row `b` of the output
  depends on row `b` of the inputs only. Row `r` is written by point `r / 64`, so the blocks cover the array and it
  ends holding `flat`. The host then reshapes `[4096, 512]` to `[4096, 8, 64]`, which reads lane `k · 64 + d` at
  `(k, d)`: the result is `outv`. The prototype the body loads is what the host operations before the call leave:
  each slot times the clamped inverse norm of the slot (`normProto`).
-/
import proofs.«103555_j21157008900255_2_alg».proof.Proof.Gen.KernelIdeal.Frame
import proofs.«103555_j21157008900255_2_alg».proof.Proof.KernelRow
import Idealize.ShloMosaic.Lib.Pipeline.Value
import Idealize.ShloMosaic.Lib.StableHlo.Run

set_option maxRecDepth 16384

noncomputable section

namespace Cert.SlotProj.Kern

open Idealize.ShloMosaic Idealize.ShloMosaic.TcCoe Idealize.ShloMosaic.ValueIdx Idealize.SL.Sem
open Cert.KernelIdeal Cert.KernelIdeal.Gen Cert.SlotProj
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block each window is on at point `t`: the inputs' and the output's batch blocks are block `t`; every other axis
    is whole. Decided over the 64 points. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 64 := lt_of_lt_of_eq t.isLt N_0

/-- The inputs' block at point `t`, read at `(b, l, d)`: row `64 t + b` of the inputs. -/
theorem read_inputs (c : Dev nD) (t : Fin cfg0.N) (b : Fin 64) (l : Fin 200) (d : Fin 64) :
    iblk m c 0 t (ix3 b l d)
      = V m c main_arg0 (ix3 (⟨t.val * 64 + b.val, by have := point_lt t; omega⟩ : Fin 4096) l d) := by
  obtain ⟨e0, e1, e2, -, -, -, -⟩ := idx_facts t
  show V m c main_arg0 (((cfg0.win 0).blk t).view.emb (ix3 b l d)) = V m c main_arg0 _
  refine congrArg (V m c main_arg0) (funext fun a => Fin.ext ?_)
  match a with
  | ⟨0, _⟩ => show win0_0.index t (0 : Fin 3) * 64 + 1 * b.val = t.val * 64 + b.val; omega
  | ⟨1, _⟩ => show win0_0.index t (1 : Fin 3) * 200 + 1 * l.val = l.val; omega
  | ⟨2, _⟩ => show win0_0.index t (2 : Fin 3) * 64 + 1 * d.val = d.val; omega

/-- The prototype's block at any point is the whole normalized prototype. -/
theorem read_proto (c : Dev nD) (t : Fin cfg0.N) (k : Fin 8) (d : Fin 64) :
    iblk m c 1 t (ix2 k d) = V m c main_v7 (ix2 k d) := by
  obtain ⟨-, -, -, e0, e1, -, -⟩ := idx_facts t
  show V m c main_v7 (((cfg0.win 1).blk t).view.emb (ix2 k d)) = V m c main_v7 _
  refine congrArg (V m c main_v7) (funext fun a => Fin.ext ?_)
  match a with
  | ⟨0, _⟩ => show win0_1.index t (0 : Fin 2) * 8 + 1 * k.val = k.val; omega
  | ⟨1, _⟩ => show win0_1.index t (1 : Fin 2) * 64 + 1 * d.val = d.val; omega

/-- A block of the body's stored value is the block of `flat`: over any arrays `X`, `Q` of which `x0` holds rows
    `64 T …` and `x1` the whole, the stored value at `(p, q)` is `flat X Q` at row `64 T + p`, lane `q`. -/
theorem block_flat (X : S4096x200x64.Idx → EReal) (Q : S8x64.Idx → EReal)
    (x0 : FVec Ideal S64x200x64 .f32) (x1 : FVec Ideal S8x64 .f32) (T : Nat) (hT : T < 64)
    (h0 : ∀ (b : Fin 64) (l : Fin 200) (d : Fin 64), x0 (ix3 b l d) = X (ix3 (⟨T * 64 + b.val, by omega⟩ : Fin 4096) l d))
    (h1 : ∀ (k : Fin 8) (d : Fin 64), x1 (ix2 k d) = Q (ix2 k d))
    (p : Fin 64) (q : Fin 512) (i : S4096x512.Idx) (hi0 : (i 0).val = T * 64 + p.val) (hi1 : (i 1).val = q.val) :
    k0_pay1 (F := Ideal) x0 x1 (ix2 p q) = flat X Q i := by
  have hb : T * 64 + p.val < 4096 := by have := p.isLt; omega
  obtain ⟨r, s, rfl⟩ : ∃ (r : Fin 4096) (s : Fin 512), i = ix2 r s := ⟨i 0, i 1, eq_ix2 i⟩
  have hr : r = (⟨T * 64 + p.val, hb⟩ : Fin 4096) := Fin.ext hi0
  have hs : s = q := Fin.ext hi1
  rw [hr, hs, pay_at, flat_at]
  have er : rowOf x0 p = rowOf X (⟨T * 64 + p.val, hb⟩ : Fin 4096) := funext fun l => funext fun d => h0 p l d
  have eq : slots x1 = slots Q := funext fun k => funext fun d => h1 k d
  rw [er, eq]

/-- WHAT POINT `t` WRITES BACK is block `t` of `flat` of the arrays as the call finds them. -/
theorem flushed_eq (c : Dev nD) (t : Fin cfg0.N) :
    (dats m 0 c).flushed 2 t = ((cfg0.win 2).blk t).view.read (Elt Ideal) (flat (V m c main_arg0) (V m c main_v7)) := by
  show (cfg0.win 2).cut (grid0.coords t) ((dats m 0 c).after 2 t) = _
  rw [after0_2]
  unfold out0_2
  rw [View.canon_unit_zero zeros2]
  simp only [View.ld_unit_zero (S := S64x200x64) zeros3, View.ld_unit_zero (S := S8x64) zeros2]
  obtain ⟨-, -, -, -, -, e0, e1⟩ := idx_facts t
  funext y
  obtain ⟨p, q, rfl⟩ : ∃ (p : Fin 64) (q : Fin 512), y = ix2 p q := ⟨y 0, y 1, eq_ix2 y⟩
  refine block_flat (V m c main_arg0) (V m c main_v7) (iblk m c 0 t) (iblk m c 1 t) t.val (point_lt t)
    (fun b l d => read_inputs m c t b l d) (fun k d => read_proto m c t k d) p q _ ?_ ?_
  · show win0_2.index t (0 : Fin 2) * 64 + 1 * p.val = t.val * 64 + p.val; omega
  · show win0_2.index t (1 : Fin 2) * 512 + 1 * q.val = q.val; omega

/-- An index of the array is in point `t`'s block iff each coordinate is in the block's range on its axis. -/
theorem mem_blk (t : Fin cfg0.N) (i : S4096x512.Idx) :
    i ∈ ((cfg0.win 2).blk t).view.set ↔ ∀ a : Fin 2, win0_2.index t a * S64x512.size a ≤ (i a).val ∧ (i a).val < win0_2.index t a * S64x512.size a + S64x512.size a := by
  show i ∈ ((View.whole main_v8).slice (win0_2.rect t)).set ↔ _
  rw [View.set_slice_whole, Rect.mem_set_unit]
  exact Iff.rfl

/-- Row `r` is in the block of point `r / 64`. -/
theorem covered (i : S4096x512.Idx) :
    ∃ t : Fin cfg0.N, (cfg0.win 2).flush t = true ∧ i ∈ ((cfg0.win 2).blk t).view.set := by
  have h0 : (i 0).val < 4096 := idx2_lt0 i
  have h1 : (i 1).val < 512 := idx2_lt1 i
  obtain ⟨t, ht⟩ : ∃ t : Fin cfg0.N, t.val = (i 0).val / 64 :=
    ⟨⟨(i 0).val / 64, lt_of_lt_of_eq (by omega : (i 0).val / 64 < 64) N_0.symm⟩, rfl⟩
  obtain ⟨-, -, -, -, -, e0, e1⟩ := idx_facts t
  refine ⟨t, flush0_2 t, ?_⟩
  rw [mem_blk]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 512 ≤ (i 1).val ∧ (i 1).val < win0_2.index t (1 : Fin 2) * 512 + 512; omega

/-- THE ARRAY after the call: `flat` of the arrays as the call finds them. -/
theorem final (c : Dev nD) : (dats m 0 c).arrAt 2 cfg0.N = flat (V m c main_arg0) (V m c main_v7) :=
  (dats m 0 c).arrAt_eq_of_cover 2 (flat (V m c main_arg0) (V m c main_v7)) (fun t _ => flushed_eq m c t) covered

/-! ## The host operations around the call -/

/-- Each slot times the clamped inverse norm of the slot: what the host operations before the call compute. -/
def normProto (p : FVec Ideal S8x64 .f32) : FVec Ideal S8x64 .f32 :=
  mulf p (broadcastInDim S8x64 ![0, 1] bcast_S8x1_S8x64_0_1 (Host.rsqrt (maximumf
    (broadcastInDim S8x1 ![0] bcast_S8_S8x1_0
      (Host.reduceAdd (mulf p p) (constant (F := Ideal) S_ .f32 0x00000000#32) reducesTo_S8x64_S8_d1 h_S_))
    (broadcastInDim S8x1 ![] bcast_S_S8x1 (constant (F := Ideal) S_ .f32 0x2B8CBCCC#32)))))

/-- The prototype the call finds is the normalized prototype of the argument. -/
theorem proto_eq (c : Dev nD) :
    (V m c main_v7 : S8x64.Idx → EReal) = normProto (m ((c : Thread nD τ).loc main_arg1)) := by
  show StableHlo.after hostOps0 (fun b => m (c, b)) (Proc.devRef .tc main_v7) = _
  after_results
  rfl

/-- The reshaped result after the call. -/
theorem result_eq (c : Dev nD) :
    Pipeline.afterTail₀ cfgs (dats m) 0 (V0 m) [hostOps1] c main_v9
      = outv (m ((c : Thread nD τ).loc main_arg0)) (normProto (m ((c : Thread nD τ).loc main_arg1))) := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v8)
      = flat (V m c main_arg0) (V m c main_v7) :=
    (Pipeline.withArrays_arr spec0 launch0.win.arr_inj c _ _ 2).trans (final m c)
  funext i
  show shapeCast S4096x8x64 (Pipeline.withArrays (cfgs 0).spec c (V0 m c) (fun w => (dats m 0 c).arrAt w (cfgs 0).N)
    (Proc.devRef .tc main_v8)) shapeCasts_S4096x512_S4096x8x64 i = _
  rw [hw, V_main_arg0, proto_eq]
  obtain ⟨b, k, d, rfl⟩ : ∃ (b : Fin 4096) (k : Fin 8) (d : Fin 64), i = ix3 b k d := ⟨i 0, i 1, i 2, eq_ix3 i⟩
  refine (shapeCast_apply _ shapeCasts_S4096x512_S4096x8x64 (ix3 b k d) (ix2 b (⟨k.val * 64 + d.val, by omega⟩ : Fin 512)) ?_).trans
    (flat_lane _ _ b k d)
  rw [Shape.rowMajor_val_two, Shape.rowMajor_val_three]
  show b.val * 512 + (k.val * 64 + d.val) = (b.val * 8 + k.val) * 64 + d.val
  omega

/-- THE IDEALIZED KERNEL PROGRAM'S RUN: it terminates with the result at `outv` of the inputs and the normalized prototype,
    and the arguments as launched. -/
theorem run : θ_run defs (onTc (τ := τ) (main (F := Ideal))) ⟨m, fun _ => 0, ρ⟩ fun r => ∀ c : Dev nD,
      r.2.mem ((c.tc : Thread nD τ).loc main_v9)
        = outv (m ((c : Thread nD τ).loc main_arg0)) (normProto (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v9 (Pipeline.mem_restRefs_of main_v9 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.SlotProj.Kern

end
-- ==== Proof.lean ====
/-
  The slot projector: for inputs `x : [4096, 200, 64]` and a prototype `p : [8, 64]`, normalize the prototype's 8 slots
  and each of a row's 200 tokens by their clamped inverse norms `rsqrt (max (∑ d, v d²) ε)`, take the cosines
  slots × tokens, the softmax of the cosines over the 8 slots at each token, and the weighted sums of the RAW tokens:
  `out[b, k, d] = ∑ l, softmax_k (cos[b, ·, l]) · x[b, l, d]`.

  The kernel program normalizes the prototype on the host, then in one call over 64 blocks of 64 batch rows computes the
  raw inner products slots × tokens, scales them by the tokens' inverse norms (obtained as a product of a row of ones
  with the squares), applies the softmax and the weighted sum, and stores slots × features flattened into 512 lanes;
  the host reshapes the lanes back. The reference scales every token's features first. On the extended reals the two
  agree because the inverse norm, clamped from below by `ε > 0`, is a non-negative real or zero, and such a factor
  moves across a finite sum (Proof/RowSpec.lean); everything after the cosines is the same function on both sides.
  No finiteness of the inputs is used.

  Both programs' results are the one array `outv x (normalized p)` (Proof/RowSpec.lean): the kernel's by
  Proof/KernelRow.lean (the body's stored value at an index) and Proof/KernelArray.lean (blocks to the array, the host
  operations around the call), the reference's by Proof/RefRow.lean over its generated run.
  The idealization rewrote nothing, so `preserves` has nothing to state.
-/
import proofs.«103555_j21157008900255_2_alg».proof.Defs
import proofs.«103555_j21157008900255_2_alg».proof.Proof.Gen.Kernel
import proofs.«103555_j21157008900255_2_alg».proof.Proof.Gen.Kernel.Frame
import proofs.«103555_j21157008900255_2_alg».proof.Proof.Gen.KernelIdeal
import proofs.«103555_j21157008900255_2_alg».proof.Proof.Gen.KernelIdeal.Frame
import proofs.«103555_j21157008900255_2_alg».proof.Proof.Gen.ReferenceIdeal
import proofs.«103555_j21157008900255_2_alg».proof.Proof.Gen.Pre_finite_inputs
import proofs.«103555_j21157008900255_2_alg».proof.Proof.Gen.ReferenceIdeal.Run
import proofs.«103555_j21157008900255_2_alg».proof.Proof.Gen.ReferenceIdeal.Read
import proofs.«103555_j21157008900255_2_alg».proof.Proof.RefRow
import proofs.«103555_j21157008900255_2_alg».proof.Proof.KernelArray
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs normalize the prototype by the same operations. -/
theorem proto_same (p : Cert.KernelIdeal.S8x64.Idx → EReal) :
    Cert.SlotProj.Kern.normProto p = Cert.ReferenceIdeal.Read.val_main_v15 (F := Ideal) p := rfl

/-- The reference's result is `outv` of the inputs and its normalized prototype. -/
theorem ref_result (x0 : Cert.ReferenceIdeal.S4096x200x64.Idx → EReal) (x1 : Cert.ReferenceIdeal.S8x64.Idx → EReal) :
    Cert.ReferenceIdeal.Read.val_main_v29 (F := Ideal) x0 x1
      = Cert.SlotProj.outv x0 (Cert.ReferenceIdeal.Read.val_main_v15 (F := Ideal) x1) := by
  funext i
  obtain ⟨b, k, d, rfl⟩ : ∃ (b : Fin 4096) (k : Fin 8) (d : Fin 64), i = ix3 b k d := ⟨i 0, i 1, i 2, eq_ix3 i⟩
  rw [Cert.SlotProj.Ref.ref_at, Cert.SlotProj.outv_at]

/-- From memories agreeing on the arguments both idealized programs end with the result at `outv` of the inputs and
    the normalized prototype. -/
theorem algebraic : Cert.algebraic_KernelIdeal_ReferenceIdeal := by
  intro m ρ m' ρ' _ hagree
  refine ⟨fun c => Cert.SlotProj.outv (m ((c : Thread Cert.KernelIdeal.nD Cert.KernelIdeal.τ).loc Cert.KernelIdeal.main_arg0))
      (Cert.SlotProj.Kern.normProto (m ((c : Thread Cert.KernelIdeal.nD Cert.KernelIdeal.τ).loc Cert.KernelIdeal.main_arg1))),
    Cert.SlotProj.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, ref_result, (hagree c).1, (hagree c).2]
  exact congrArg (Cert.SlotProj.outv _) (proto_same _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
